-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S2048 : Shape := ⟨1, ![2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x4096 .f32) (main_arg1 : FVec F S4096x2048 .f32) (main_arg2 : FVec F S4096x2048 .f32) (main_arg3 : FVec F S2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4096x4096 : Shape := ⟨2, ![4096, 4096]⟩
abbrev S4096x2048 : Shape := ⟨2, ![4096, 2048]⟩
abbrev S2048 : Shape := ⟨1, ![2048]⟩
abbrev S1x2048 : Shape := ⟨2, ![1, 2048]⟩
abbrev S2048x256 : Shape := ⟨2, ![2048, 256]⟩
abbrev S256x1024 : Shape := ⟨2, ![256, 1024]⟩
abbrev S1x1024 : Shape := ⟨2, ![1, 1024]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x2048.size a
  hwx0_1 : ∀ i : grid0.Coords, EltTy.bits .f32 = 32 ∨ (Rect.block (s := S4096x2048) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x2048.size a
  hwx0_2 : ∀ i : grid0.Coords, EltTy.bits .f32 = 32 ∨ (Rect.block (s := S4096x2048) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x2048.size a
  hwx0_4 : ∀ i : grid0.Coords, EltTy.bits .f32 = 32 ∨ (Rect.block (s := S4096x2048) S2048x1024.size (cc0_transform_4 i) (hinb0_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x2048 : Shape := ⟨2, ![4096, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.MaskedDense.lean ====
/-
  The masked dense layer as ONE function of its four argument arrays, and the one law of sums that joins the two
  programs.

  Over the extended reals the layer is, at row `r` and column `c`,
      ( ∑ k < 4096,  x[r, k] · (mask[k, c] · W[k, c]) )  +  b[c].
  The reference computes the sum at once (one contraction over all 4096 values of `k`). The kernel computes it in
  sixteen runs of 256 consecutive values of `k`, adding each run's partial sum to what the runs before it left. The two
  agree because a finite sum over `Fin 4096` is the sum, over the sixteen runs, of the sums inside each run: only the
  associativity and commutativity of `+` are used, which hold on the extended reals without any finiteness assumption.
-/
import Idealize.ShloMosaic.Lib.ValueIdx
import Idealize.ShloMosaic.PureOps.Ideal

noncomputable section

namespace Cert.MaskedDense

open Idealize.ShloMosaic Idealize.ShloMosaic.ValueIdx
open scoped BigOperators

/-- One product of the contraction: `x[r, k] · (mask[k, c] · W[k, c])`. -/
def term (X : (⟨2, ![4096, 4096]⟩ : Shape).Idx → EReal) (Mk Wt : (⟨2, ![4096, 2048]⟩ : Shape).Idx → EReal)
    (r : Fin 4096) (c : Fin 2048) (k : Fin 4096) : EReal :=
  X (ix2 r k) * (Mk (ix2 k c) * Wt (ix2 k c))

/-- The layer's value at row `i 0` and column `i 1`: the whole contraction plus the bias of the column. -/
def layer (X : (⟨2, ![4096, 4096]⟩ : Shape).Idx → EReal) (Mk Wt : (⟨2, ![4096, 2048]⟩ : Shape).Idx → EReal)
    (B : (⟨1, ![2048]⟩ : Shape).Idx → EReal) : (⟨2, ![4096, 2048]⟩ : Shape).Idx → EReal := fun i =>
  (∑ k : Fin 4096, term X Mk Wt (i 0) (i 1) k) + B (ix1 (i 1))

/-- A sum over `Fin 4096` regrouped into sixteen consecutive runs of 256: run `s` holds the indices
    `256·s, …, 256·s + 255`. Valid in any commutative additive monoid. -/
theorem sum_runs {β : Type*} [AddCommMonoid β] (f : Fin 4096 → β) :
    ∑ k : Fin 4096, f k
      = ∑ s : Fin 16, ∑ q : Fin 256, f ⟨256 * s.val + q.val, by have := s.isLt; have := q.isLt; omega⟩ := by
  rw [← Fintype.sum_prod_type' (f := fun (s : Fin 16) (q : Fin 256) =>
    f ⟨256 * s.val + q.val, by have := s.isLt; have := q.isLt; omega⟩)]
  refine (Fintype.sum_equiv (finProdFinEquiv (m := 16) (n := 256)) _ f (fun x => congrArg f (Fin.ext ?_))).symm
  show 256 * x.1.val + x.2.val = x.2.val + 256 * x.1.val
  omega

end Cert.MaskedDense

end
-- ==== Proof.RefRead.lean ====
/-
  The reference program's result is the masked dense layer.

  The reference multiplies `mask` and `W` entry by entry, contracts `x` with that product over all 4096 values of the
  shared index at once, and adds the bias, broadcast first to one row and then down all 4096 rows. Read at row `i 0`
  and column `i 1` this is `∑ k, x[i 0, k] · (mask[k, i 1] · W[k, i 1]) + b[i 1]`: the layer, term by term.
-/
import proofs.«123358_j38096359916173_2_alg».proof.Proof.Gen.ReferenceIdeal.Read
import proofs.«123358_j38096359916173_2_alg».proof.Proof.MaskedDense

noncomputable section

namespace Cert.ReferenceIdeal.Layer

open Cert.ReferenceIdeal Cert.ReferenceIdeal.Gen Cert.ReferenceIdeal.Read
open Idealize.ShloMosaic Idealize.ShloMosaic.ValueIdx
open scoped BigOperators

/-- The reference's last stage, as a function of the four arguments, is the layer. -/
theorem reference_eq_layer (x0 : (⟨S4096x4096, .f32⟩ : BufTy).Contents (Elt Ideal))
    (x1 x2 : (⟨S4096x2048, .f32⟩ : BufTy).Contents (Elt Ideal)) (x3 : (⟨S2048, .f32⟩ : BufTy).Contents (Elt Ideal)) :
    val_main_v4 (F := Ideal) x0 x1 x2 x3 = Cert.MaskedDense.layer x0 x1 x2 x3 := by
  funext i
  -- the contraction reads `x` at (row of `i`, k) and the product of `mask` and `W` at (k, column of `i`)
  have el : ∀ k : Fin 4096, lidx_main_v1 i k = ix2 (i 0) k := fun k => funext fun a => Fin.ext (by
    match a with
    | ⟨0, _⟩ => rfl
    | ⟨1, _⟩ => rfl)
  have er : ∀ k : Fin 4096, ridx_main_v1 i k = ix2 k (i 1) := fun k => funext fun a => Fin.ext (by
    match a with
    | ⟨0, _⟩ => rfl
    | ⟨1, _⟩ => rfl)
  -- the two broadcasts read the bias at the column of `i`
  have eb : idx_main_v2 (idx_main_v3 i) = ix1 (i 1) := funext fun a => Fin.ext (by
    match a with
    | ⟨0, _⟩ => rfl)
  rw [val_main_v4_apply, val_main_v1_apply, val_main_v3_apply, val_main_v2_apply, eb]
  simp only [val_main_v0_apply, el, er]
  rfl

end Cert.ReferenceIdeal.Layer

end
-- ==== Proof.Payloads.lean ====
/-
  The kernel body's three stored values, read at one index of the output block, over the extended reals.

  The body keeps a 2048 × 1024 block of the output resident while the grid's innermost axis walks the sixteen
  runs of the contraction. At the first run it stores zero; at every run it stores what the block held plus the
  product of the run's 2048 × 256 slab of `x` with the run's 256 × 1024 slab of `mask · W`; at the last run it
  then stores that plus the bias row, the same for all 2048 rows. Narrowing the factors to sixteen bits before the
  product is the identity on the extended reals, so the product at row `p`, column `s` is the plain sum over the
  slab's 256 rows `q` of `x[p, q] · (mask[q, s] · W[q, s])`.
-/
import proofs.«123358_j38096359916173_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The block the first run starts from is zero everywhere. -/
theorem zero_apply (y : S2048x1024.Idx) : k0_pay1 (F := Ideal) y = 0 := by
  unfold k0_pay1
  exact Ideal.ofBits_zero_f32

/-- The contraction record of one run's product: output row from the left factor, output column from the right,
    one contracted axis of extent 256. -/
abbrev runDot : DotDims S2048x256 S256x1024 S2048x1024 := dot_S2048x256_S256x1024_S2048x1024_1_0_0_1_n_n

theorem runDot_lhs_row (y : S2048x1024.Idx) (k : runDot.contr.Idx) : (runDot.lhsIdx y k 0).val = (y 0).val := by
  unfold DotDims.lhsIdx
  rw [dif_neg (show ¬(0 : Fin S2048x256.rank) ∈ runDot.lhsBatch by decide),
    dif_pos (show (0 : Fin S2048x256.rank) ∈ runDot.lhsNonContracting by decide)]
  rfl
theorem runDot_lhs_col (y : S2048x1024.Idx) (k : runDot.contr.Idx) : (runDot.lhsIdx y k 1).val = (k ⟨0, by decide⟩).val :=
  runDot.lhsIdx_val_of_single rfl y k
theorem runDot_rhs_row (y : S2048x1024.Idx) (k : runDot.contr.Idx) : (runDot.rhsIdx y k 0).val = (k ⟨0, by decide⟩).val :=
  runDot.rhsIdx_val_of_single rfl y k
theorem runDot_rhs_col (y : S2048x1024.Idx) (k : runDot.contr.Idx) : (runDot.rhsIdx y k 1).val = (y 1).val := by
  unfold DotDims.rhsIdx
  rw [dif_neg (show ¬(1 : Fin S256x1024.rank) ∈ runDot.rhsBatch by decide),
    dif_pos (show (1 : Fin S256x1024.rank) ∈ runDot.rhsNonContracting by decide)]
  rfl

/-- A product of a 2048 × 256 slab with a 256 × 1024 slab into a zero block, at row `y 0` and column `y 1`:
    the sum over the 256 contracted positions of the products of the two entries. -/
theorem slabProduct_apply (a : FVec Ideal S2048x256 .bf16) (b : FVec Ideal S256x1024 .bf16) (y : S2048x1024.Idx) :
    matmul runDot none a b (constant S2048x1024 .f32 0x00000000#32) y
      = ∑ q : Fin 256, a (ix2 (y 0) q) * b (ix2 q (y 1)) := by
  simp only [matmul]
  rw [Ideal.matmul_constant_zero_apply, ← Equiv.sum_comp (contrEquiv1 runDot 256 rfl rfl).symm]
  refine Finset.sum_congr rfl fun q _ => ?_
  have hq := contrEquiv1_symm_val runDot 256 rfl rfl q
  have el : runDot.lhsIdx y ((contrEquiv1 runDot 256 rfl rfl).symm q) = ix2 (y 0) q := funext fun d => Fin.ext (by
    match d with
    | ⟨0, _⟩ => exact runDot_lhs_row _ _
    | ⟨1, _⟩ => exact (runDot_lhs_col _ _).trans hq)
  have er : runDot.rhsIdx y ((contrEquiv1 runDot 256 rfl rfl).symm q) = ix2 q (y 1) := funext fun d => Fin.ext (by
    match d with
    | ⟨0, _⟩ => exact (runDot_rhs_row _ _).trans hq
    | ⟨1, _⟩ => exact runDot_rhs_col _ _)
  rw [el, er]
  rfl

/-- One run's contribution at row `y 0`, column `y 1` of the block, from the run's slabs of `x`, `mask` and `W`. -/
def runSum (x0 : Vec Ideal S2048x256 .f32) (x1 x2 : Vec Ideal S256x1024 .f32) : S2048x1024.Idx → EReal := fun y =>
  ∑ q : Fin 256, x0 (ix2 (y 0) q) * (x1 (ix2 q (y 1)) * x2 (ix2 q (y 1)))

/-- What every run stores: the block's previous contents plus the run's contribution. -/
theorem accumulate_apply (x0 : Vec Ideal S2048x256 .f32) (x1 x2 : Vec Ideal S256x1024 .f32)
    (acc : Vec Ideal S2048x1024 .f32) (y : S2048x1024.Idx) :
    k0_pay2 x0 x1 x2 acc y = acc y + runSum x0 x1 x2 y := by
  unfold k0_pay2
  rw [addf_apply, shapeCast_self]
  exact congrArg (acc y + ·) (slabProduct_apply _ _ y)

/-- What the last run stores after accumulating: the block plus the bias row, whatever the block's row. -/
theorem addBias_apply (acc : Vec Ideal S2048x1024 .f32) (x3 : Vec Ideal S1x1024 .f32) (y : S2048x1024.Idx) :
    k0_pay3 acc x3 y = acc y + x3 (ix2 (0 : Fin 1) (y 1)) := by
  unfold k0_pay3
  rw [addf_apply, shapeCast_self, shapeCast_self]
  refine congrArg (acc y + ·) (broadcastTo_apply x3 _ y (ix2 (0 : Fin 1) (y 1)) (fun d => ?_))
  match d with
  | ⟨0, _⟩ => show 0 = if (1 : Nat) = 1 then 0 else _; rw [if_pos rfl]
  | ⟨1, _⟩ => show (y 1).val = if (1024 : Nat) = 1 then 0 else _; rw [if_neg (by decide)]; rfl

end Cert.KernelIdeal.Payload

end
-- ==== Proof.Blocks.lean ====
/-
  The input blocks of a grid point, as entries of the argument arrays.

  The grid has 2 × 2 × 16 = 64 points, numbered row-major: point `t` works on block row `t / 32` and block column
  `(t / 16) % 2` of the output and on run `t % 16` of the contraction. At that point the kernel is handed
    * the 2048 × 256 block of `x` at block row `t / 32`, block column `t % 16`;
    * the 256 × 1024 blocks of `mask` and of `W` at block row `t % 16`, block column `(t / 16) % 2`;
    * the 1 × 1024 block at block column `(t / 16) % 2` of the bias laid out as one row of 2048.
  Entry `(p, q)` of a block at block index `(I, J)` with block sizes `(h, w)` is entry `(I·h + p, J·w + q)` of the array.
-/
import proofs.«123358_j38096359916173_2_alg».proof.Proof.Gen.KernelIdeal.Frame.Runs
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The block indices of the four input windows at every grid point, from the point's number. -/
theorem block_of_point : ∀ t : Fin cfg0.N,
    win0_0.index t (0 : Fin 2) = t.val / 32 ∧ win0_0.index t (1 : Fin 2) = t.val % 16
    ∧ win0_1.index t (0 : Fin 2) = t.val % 16 ∧ win0_1.index t (1 : Fin 2) = t.val / 16 % 2
    ∧ win0_2.index t (0 : Fin 2) = t.val % 16 ∧ win0_2.index t (1 : Fin 2) = t.val / 16 % 2
    ∧ win0_3.index t (0 : Fin 2) = 0 ∧ win0_3.index t (1 : Fin 2) = t.val / 16 % 2 :=
  (by decide +kernel : ∀ t : Fin grid0.N, _)

/-- Entry `(p, q)` of the block of `x` at point `t` is `x[2048·(t / 32) + p, 256·(t % 16) + q]`. -/
theorem xBlock_apply (c : Dev nD) (t : Fin cfg0.N) (p : Fin 2048) (q : Fin 256) (r k : Fin 4096)
    (hr : r.val = 2048 * (t.val / 32) + p.val) (hk : k.val = 256 * (t.val % 16) + q.val) :
    (iblk m c 0 t : Vec F S2048x256 .f32) (ix2 p q) = m ((c : Thread nD τ).loc main_arg0) (ix2 r k) := by
  obtain ⟨e0, e1, -⟩ := block_of_point t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * q.val = k.val; rw [e1, hk]; omega

/-- Entry `(q, s)` of the block of `mask` at point `t` is `mask[256·(t % 16) + q, 1024·((t / 16) % 2) + s]`. -/
theorem maskBlock_apply (c : Dev nD) (t : Fin cfg0.N) (q : Fin 256) (s : Fin 1024) (k : Fin 4096) (cc : Fin 2048)
    (hk : k.val = 256 * (t.val % 16) + q.val) (hc : cc.val = 1024 * (t.val / 16 % 2) + s.val) :
    (iblk m c 1 t : Vec F S256x1024 .f32) (ix2 q s) = m ((c : Thread nD τ).loc main_arg1) (ix2 k cc) := by
  obtain ⟨-, -, e0, e1, -⟩ := block_of_point t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = k.val; rw [e0, hk]; omega
  | ⟨1, _⟩ => show win0_1.index t (1 : Fin 2) * 1024 + 1 * s.val = cc.val; rw [e1, hc]; omega

/-- Entry `(q, s)` of the block of `W` at point `t` is `W[256·(t % 16) + q, 1024·((t / 16) % 2) + s]`. -/
theorem weightBlock_apply (c : Dev nD) (t : Fin cfg0.N) (q : Fin 256) (s : Fin 1024) (k : Fin 4096) (cc : Fin 2048)
    (hk : k.val = 256 * (t.val % 16) + q.val) (hc : cc.val = 1024 * (t.val / 16 % 2) + s.val) :
    (iblk m c 2 t : Vec F S256x1024 .f32) (ix2 q s) = m ((c : Thread nD τ).loc main_arg2) (ix2 k cc) := by
  obtain ⟨-, -, -, -, e0, e1, -⟩ := block_of_point t
  unfold iblk
  rw [View.read_apply]
  show V m c main_arg2 _ = _
  rw [V_main_arg2]
  refine congrArg _ (funext fun a => Fin.ext ?_)
  match a with
  | ⟨0, _⟩ => show win0_2.index t (0 : Fin 2) * 256 + 1 * q.val = k.val; rw [e0, hk]; omega
  | ⟨1, _⟩ => show win0_2.index t (1 : Fin 2) * 1024 + 1 * s.val = cc.val; rw [e1, hc]; omega

/-- The array the bias window stages: the bias, 2048 long, laid out as one row of 2048. -/
theorem biasRow_eq (c : Dev nD) :
    (V m c main_v0 : Vec F S1x2048 .f32)
      = shapeCast S1x2048 (m ((c : Thread nD τ).loc main_arg3)) Cert.KernelIdeal.Gen.shapeCasts_S2048_S1x2048 := by
  dsimp only [V, hostOps0]
  after_results
  rfl

/-- Entry `(0, s)` of the bias block at point `t` is `b[1024·((t / 16) % 2) + s]`. -/
theorem biasBlock_apply (c : Dev nD) (t : Fin cfg0.N) (s : Fin 1024) (cc : Fin 2048)
    (hc : cc.val = 1024 * (t.val / 16 % 2) + s.val) :
    (iblk m c 3 t : Vec F S1x1024 .f32) (ix2 (0 : Fin 1) s) = m ((c : Thread nD τ).loc main_arg3) (ix1 cc) := by
  obtain ⟨-, -, -, -, -, -, e0, e1⟩ := block_of_point t
  unfold iblk
  rw [View.read_apply]
  show V m c main_v0 _ = _
  rw [biasRow_eq]
  refine shapeCast_apply _ _ _ (ix1 cc) ?_
  rw [Shape.rowMajor_val_one, Shape.rowMajor_val_two]
  show cc.val = (win0_3.index t (0 : Fin 2) * 1 + 1 * 0) * 2048 + (win0_3.index t (1 : Fin 2) * 1024 + 1 * s.val)
  rw [e0, e1, hc]; omega

end Cert.KernelIdeal.Blocks

end
-- ==== Proof.Fold.lean ====
/-
  What the kernel leaves in the output array is the masked dense layer.

  Each 2048 × 1024 block of the output is produced by sixteen consecutive grid points, one per run of the
  contraction. The block starts at zero, every point adds its run's contribution, and the sixteenth point then adds
  the bias row. So after the sixteen points the block holds, at local row `p` and local column `s`,
      ( 0 + contribution of run 0 + … + contribution of run 15 ) + bias[s],
  and the contribution of run `j` is the sum of the 256 terms `256·j, …, 256·j + 255` of the row's contraction.
  Regrouping the sixteen runs into one sum over 4096 terms gives the layer at the entry of the output the block's
  place `(p, s)` stands for.
-/
import proofs.«123358_j38096359916173_2_alg».proof.Proof.Gen.KernelIdeal.Value
import proofs.«123358_j38096359916173_2_alg».proof.Proof.MaskedDense
import proofs.«123358_j38096359916173_2_alg».proof.Proof.Payloads
import proofs.«123358_j38096359916173_2_alg».proof.Proof.Blocks

noncomputable section

namespace Cert.KernelIdeal.Fold

open Cert.KernelIdeal Cert.KernelIdeal.Gen Cert.KernelIdeal.Value
open Idealize.ShloMosaic Idealize.ShloMosaic.TcCoe Idealize.SL.Sem Idealize.ShloMosaic.ValueIdx
open Cert.KernelIdeal.Payload Cert.KernelIdeal.Blocks Cert.MaskedDense
open scoped BigOperators

variable (m : (ℓ : Loc nD τ sig) → Buf (Elt Ideal) ℓ)

/-- What grid point `n` adds to its output block: its run's contribution, from the point's blocks of `x`, `mask` and
    `W` (zero past the grid, where it is never used). -/
def contrib (c : Dev nD) (n : ℕ) : S2048x1024.Idx → EReal := fun y =>
  if h : n < cfg0.N then runSum (iblk m c 0 ⟨n, h⟩) (iblk m c 1 ⟨n, h⟩) (iblk m c 2 ⟨n, h⟩) y else 0

theorem contrib_of_lt (c : Dev nD) (n : ℕ) (h : n < cfg0.N) (y : S2048x1024.Idx) :
    contrib m c n y = runSum (iblk m c 0 ⟨n, h⟩) (iblk m c 1 ⟨n, h⟩) (iblk m c 2 ⟨n, h⟩) y := dif_pos h

/-- After the first fifteen points of a block's sixteen, the block holds zero plus their fifteen contributions. -/
theorem fold_fifteen (c : Dev nD) (b : ℕ) (hb : b % 16 = 0) (h : b + 14 < cfg0.N) (y : S2048x1024.Idx) :
    Pipeline.accAt (reset4 m c) (step4 m c) b 14 h y = 0 + ∑ s ∈ Finset.range 15, contrib m c (b + s) y :=
  Pipeline.accAt_add_apply (ι := S2048x1024.Idx) (β := EReal) (reset4 m c) (step4 m c) (fun _ => 0) (contrib m c) b 14
    (fun hb' y => by
      unfold reset4
      rw [accumulate_apply, zero_apply, contrib_of_lt m c b hb'])
    (fun n hn acc y h1 h2 => by
      unfold step4
      rw [if_pos ⟨by omega, by omega⟩, accumulate_apply, contrib_of_lt m c n hn])
    14 le_rfl h y

/-- The last of a block's sixteen points: what it leaves is what the point before left, plus its run's contribution,
    plus the bias row. -/
theorem step_last (c : Dev nD) (n : ℕ) (hn : n < cfg0.N) (h0 : ¬n % 16 = 0) (h15 : n % 16 = 15)
    (acc : Vec Ideal S2048x1024 .f32) (y : S2048x1024.Idx) :
    step4 m c n hn acc y
      = acc y + runSum (iblk m c 0 ⟨n, hn⟩) (iblk m c 1 ⟨n, hn⟩) (iblk m c 2 ⟨n, hn⟩) y
        + (iblk m c 3 ⟨n, hn⟩ : Vec Ideal S1x1024 .f32) (ix2 (0 : Fin 1) (y 1)) := by
  unfold step4
  rw [if_neg (fun hh => hh.2 h15), if_pos ⟨h0, h15⟩, addBias_apply, accumulate_apply]

/-- After all sixteen points the block holds the sixteen contributions plus the bias row. -/
theorem fold_sixteen (c : Dev nD) (b : ℕ) (hb : b % 16 = 0) (h : b + 15 < cfg0.N) (y : S2048x1024.Idx) :
    Pipeline.accAt (reset4 m c) (step4 m c) b 15 h y
      = (∑ s ∈ Finset.range 16, contrib m c (b + s) y)
        + (iblk m c 3 ⟨b + 15, h⟩ : Vec Ideal S1x1024 .f32) (ix2 (0 : Fin 1) (y 1)) := by
  show step4 m c (b + 15) h (Pipeline.accAt (reset4 m c) (step4 m c) b 14 (Nat.lt_of_succ_lt h)) y = _
  rw [step_last m c (b + 15) h (by omega) (by omega), fold_fifteen m c b hb, zero_add,
    Finset.sum_range_succ (fun s => contrib m c (b + s) y) 15, contrib_of_lt m c (b + 15) h]

/-- The contribution of the `j`-th point of the sixteen that produce the block holding output entry `(r, cc)`, at
    that entry's place in the block, is the sum of terms `256·j, …, 256·j + 255` of the entry's contraction. -/
theorem contrib_apply (c : Dev nD) (r : Fin 4096) (cc : Fin 2048) (p : Fin 2048) (sl : Fin 1024) (b : ℕ)
    (hb : b = 16 * (2 * (r.val / 2048) + cc.val / 1024)) (hp : p.val = r.val % 2048) (hs : sl.val = cc.val % 1024)
    (j : Fin 16) :
    contrib m c (b + j.val) (ix2 p sl)
      = ∑ q : Fin 256, term (m ((c : Thread nD τ).loc main_arg0)) (m ((c : Thread nD τ).loc main_arg1))
          (m ((c : Thread nD τ).loc main_arg2)) r cc
          ⟨256 * j.val + q.val, by have := j.isLt; have := q.isLt; omega⟩ := by
  have hr := r.isLt
  have hc := cc.isLt
  have hj := j.isLt
  have hlt : b + j.val < cfg0.N := by rw [show cfg0.N = 64 from N_0]; omega
  rw [contrib_of_lt m c _ hlt]
  unfold runSum
  refine Finset.sum_congr rfl fun q _ => ?_
  have hq := q.isLt
  unfold term
  exact congrArg₂ (· * ·)
    (xBlock_apply m c ⟨b + j.val, hlt⟩ p q r ⟨256 * j.val + q.val, by omega⟩
      (by show r.val = 2048 * ((b + j.val) / 32) + p.val; omega)
      (by show 256 * j.val + q.val = 256 * ((b + j.val) % 16) + q.val; omega))
    (congrArg₂ (· * ·)
      (maskBlock_apply m c ⟨b + j.val, hlt⟩ q sl ⟨256 * j.val + q.val, by omega⟩ cc
        (by show 256 * j.val + q.val = 256 * ((b + j.val) % 16) + q.val; omega)
        (by show cc.val = 1024 * ((b + j.val) / 16 % 2) + sl.val; omega))
      (weightBlock_apply m c ⟨b + j.val, hlt⟩ q sl ⟨256 * j.val + q.val, by omega⟩ cc
        (by show 256 * j.val + q.val = 256 * ((b + j.val) % 16) + q.val; omega)
        (by show cc.val = 1024 * ((b + j.val) / 16 % 2) + sl.val; omega)))

/-- THE KERNEL'S RESULT: the array the run leaves is the layer of the four arguments. -/
theorem G4_eq_layer (c : Dev nD) :
    G4 m c = layer (m ((c : Thread nD τ).loc main_arg0)) (m ((c : Thread nD τ).loc main_arg1))
      (m ((c : Thread nD τ).loc main_arg2)) (m ((c : Thread nD τ).loc main_arg3)) := by
  funext i
  have hi0 : (i 0).val < 4096 := (i 0).isLt
  have hi1 : (i 1).val < 2048 := (i 1).isLt
  have hN : cfg0.N = 64 := N_0
  have hrun : run4Of i = 2 * ((i 0).val / 2048) + (i 1).val / 1024 := by
    show 2 * ((i 0).val / 2048 - 0) + 1 * ((i 1).val / 1024 - 0) = _
    omega
  have hloc : loc4Of i
      = ix2 (⟨(i 0).val % 2048, Nat.mod_lt _ (by decide)⟩ : Fin 2048) (⟨(i 1).val % 1024, Nat.mod_lt _ (by decide)⟩ : Fin 1024) :=
    funext fun a => by
      match a with
      | ⟨0, _⟩ => rfl
      | ⟨1, _⟩ => rfl
  have hlt : 16 * run4Of i + 15 < cfg0.N := by rw [hrun, hN]; omega
  unfold G4
  rw [dif_pos hlt, hloc, fold_sixteen m c (16 * run4Of i) (by omega) hlt, Finset.sum_range]
  unfold layer
  rw [sum_runs]
  exact congrArg₂ (· + ·)
    (Finset.sum_congr rfl fun j _ => contrib_apply m c (i 0) (i 1) _ _ (16 * run4Of i) (by rw [hrun]) rfl rfl j)
    (biasBlock_apply m c ⟨16 * run4Of i + 15, hlt⟩ _ (i 1)
      (by show (i 1).val = 1024 * ((16 * run4Of i + 15) / 16 % 2) + (i 1).val % 1024; rw [hrun]; omega))

end Cert.KernelIdeal.Fold

end
-- ==== Proof.lean ====
/-
  A masked dense layer, `out = x · (mask ∘ W) + b` with `x` 4096 × 4096, `mask` and `W` 4096 × 2048 and `b` of length
  2048, computed by a tiled kernel and by a plain reference: the two agree, entry by entry, over the extended reals.

  The kernel cuts the output into four 2048 × 1024 blocks and the contraction into sixteen runs of 256. A block stays
  resident while its sixteen runs pass: it is zeroed at the first, every run adds the product of its slab of `x` with
  its slab of `mask ∘ W`, and the last run adds the bias row. The reference contracts all 4096 terms at once and adds
  the bias. Over the extended reals narrowing a factor to sixteen bits changes nothing, so both sides are, at row `r`
  and column `c`,  `∑ k, x[r, k] · (mask[k, c] · W[k, c]) + b[c]`; the kernel's sixteen partial sums regroup into the
  reference's one sum by associativity and commutativity of `+` alone, so the inputs' finiteness is never used.

  The kernel's side is `Fold.G4_eq_layer`, the reference's `Layer.reference_eq_layer`; what remains here is to set the
  two runs side by side on memories that agree on the four arguments.
-/
import proofs.«123358_j38096359916173_2_alg».proof.Defs
import proofs.«123358_j38096359916173_2_alg».proof.Proof.Gen.Kernel.Frame
import proofs.«123358_j38096359916173_2_alg».proof.Proof.Gen.KernelIdeal.Value
import proofs.«123358_j38096359916173_2_alg».proof.Proof.Gen.Pre_finite_inputs
import proofs.«123358_j38096359916173_2_alg».proof.Proof.Gen.ReferenceIdeal.Run
import proofs.«123358_j38096359916173_2_alg».proof.Proof.RefRead
import proofs.«123358_j38096359916173_2_alg».proof.Proof.Fold
import Idealize.ShloMosaic.Adequacy
import Idealize.ShloMosaic.Init

noncomputable section

namespace Cert.Proof

open Idealize.ShloMosaic Idealize.SL.Sem

/-- The idealized kernel terminates without a fault and leaves its four arguments as they were: its run, with what
    it says of the result dropped. -/
theorem frame_KernelIdeal : frame_KernelIdeal := fun m ρ _ =>
  (θ_run Cert.KernelIdeal.defs _ _).mono (fun _ h c => (h c).2) (Cert.KernelIdeal.Value.run (F := Ideal) m ρ)

/-- The same of the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x`, `mask`, `W` and `b`, both programs end with the layer of those four arrays in
    their result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v4_eq _ _ _ _).trans
    ((Cert.ReferenceIdeal.Layer.reference_eq_layer _ _ _ _).trans (Cert.KernelIdeal.Fold.G4_eq_layer m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
